-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S128x128 : Shape := ⟨2, ![128, 128]⟩
abbrev S128 : Shape := ⟨1, ![128]⟩
abbrev S256x128 : Shape := ⟨2, ![256, 128]⟩
abbrev S128x384 : Shape := ⟨2, ![128, 384]⟩
abbrev S384 : Shape := ⟨1, ![384]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg7 : FVec F S128x384 .f32) (main_arg8 : FVec F S384 .f32) (main_v33 : IVec S_ 1) : IVec S_ 1 :=
  let main_v34 : FVec F S128x384 .f32 := Host.absf main_arg7
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  main_v43

def fn_part1 {F : FTy → Type} [FloatOps F] (main_arg4 : FVec F S128 .f32) (main_arg5 : FVec F S256x128 .f32) (main_arg6 : FVec F S128 .f32) (main_arg7 : FVec F S128x384 .f32) (main_arg8 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S200000x512 .f32) (main_arg1 : FVec F S128x128 .f32) (main_arg2 : FVec F S128 .f32) (main_arg3 : FVec F S128x128 .f32) (main_arg4 : FVec F S128 .f32) (main_arg5 : FVec F S256x128 .f32) (main_arg6 : FVec F S128 .f32) (main_arg7 : FVec F S128x384 .f32) (main_arg8 : FVec F S384 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S200000x512 : Shape := ⟨2, ![200000, 512]⟩
abbrev S128x128 : Shape := ⟨2, ![128, 128]⟩
abbrev S128 : Shape := ⟨1, ![128]⟩
abbrev S256x128 : Shape := ⟨2, ![256, 128]⟩
abbrev S128x384 : Shape := ⟨2, ![128, 384]⟩
abbrev S384 : Shape := ⟨1, ![384]⟩
abbrev S1600x512 : Shape := ⟨2, ![1600, 512]⟩
abbrev S1600x128 : Shape := ⟨2, ![1600, 128]⟩
abbrev S1x128 : Shape := ⟨2, ![1, 128]⟩
abbrev S1600x384 : Shape := ⟨2, ![1600, 384]⟩
abbrev S1x384 : Shape := ⟨2, ![1, 384]⟩

abbrev nBuf : Space → Nat
  | .hbm => 17
  | .vmem => 13
  | .smem => 0
  | _ => 0

abbrev bufTy : (tb : Table) → Fin (tcTables nBuf tb) → BufTy
  | .hbm, ⟨0, _⟩ => ⟨S200000x512, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S128x128, .bf16⟩
  | .hbm, ⟨10, _⟩ => ⟨S128x128, .bf16⟩
  | .hbm, ⟨11, _⟩ => ⟨S128x128, .f32⟩
  | .hbm, ⟨12, _⟩ => ⟨S128x128, .bf16⟩
  | .hbm, ⟨13, _⟩ => ⟨S128x128, .f32⟩
  | .hbm, ⟨14, _⟩ => ⟨S128x128, .bf16⟩
  | .hbm, ⟨15, _⟩ => ⟨S128x384, .bf16⟩
  | .hbm, ⟨16, _⟩ => ⟨S200000x512, .f32⟩
  | .local _ .vmem, ⟨0, _⟩ => ⟨S1600x512, .f32⟩
  | .local _ .vmem, ⟨1, _⟩ => ⟨S1600x512, .f32⟩
  | .local _ .vmem, ⟨2, _⟩ => ⟨S128x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128x128, .bf16⟩
  | .local _ .vmem, ⟨8, _⟩ => ⟨S128, .f32⟩
  | .local _ .vmem, ⟨9, _⟩ => ⟨S128x384, .bf16⟩
  | .local _ .vmem, ⟨10, _⟩ => ⟨S384, .f32⟩
  | .local _ .vmem, ⟨11, _⟩ => ⟨S1600x512, .f32⟩
  | .local _ .vmem, ⟨12, _⟩ => ⟨S1600x512, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1600x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  slices_S256x128_S128x128_0_0 : S256x128.Slices ![0, 0] S128x128
  slices_S256x128_S128x128_128_0 : S256x128.Slices ![128, 0] S128x128
  inb_S1600x512_S1600x128_0_0 : ∀ a, (![0, 0] : Fin 2 → Nat) a + S1600x128.size a ≤ S1600x512.size a
  h_S1600x128 : 0 < S1600x128.numel
  inb_S1600x512_S1600x128_0_128 : ∀ a, (![0, 128] : Fin 2 → Nat) a + S1600x128.size a ≤ S1600x512.size a
  inb_S1600x512_S1600x128_0_256 : ∀ a, (![0, 256] : Fin 2 → Nat) a + S1600x128.size a ≤ S1600x512.size a
  inb_S1600x512_S1600x128_0_384 : ∀ a, (![0, 384] : Fin 2 → Nat) a + S1600x128.size a ≤ S1600x512.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1600x128 : S1x128.Broadcasts S1600x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S1600x384 : S1x384.Broadcasts S1600x384
  slices_S1600x384_o0_0_S1600x128 : S1600x384.Slices ![0, 0] S1600x128
  slices_S1600x384_o0_128_S1600x128 : S1600x384.Slices ![0, 128] S1600x128
  slices_S1600x384_o0_256_S1600x128 : S1600x384.Slices ![0, 256] S1600x128
  dot_S1600x128_S128x128_S1600x128_1_0_0_1_n_n_wf : DotDims.WF S1600x128 S128x128 S1600x128 [1] [0] [0] [1] [] []
  dot_S1600x128_S128x384_S1600x384_1_0_0_1_n_n_wf : DotDims.WF S1600x128 S128x384 S1600x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x512.size a ≤ S200000x512.size a
  hwx0_0 : ∀ i : grid0.Coords, EltTy.bits .f32 = 32 ∨ (Rect.block (s := S200000x512) S1600x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x384.size a ≤ S128x384.size a
  hwx0_8 : ∀ i : grid0.Coords, EltTy.bits .bf16 = 32 ∨ (Rect.block (s := S128x384) S128x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384.size a ≤ S384.size a
  hwx0_9 : ∀ i : grid0.Coords, EltTy.bits .f32 = 32 ∨ (Rect.block (s := S384) S384.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1600x512.size a ≤ S200000x512.size a
  hwx0_10 : ∀ i : grid0.Coords, EltTy.bits .f32 = 32 ∨ (Rect.block (s := S200000x512) S1600x512.size (cc0_transform_10 i) (hinb0_10 i)).WholeWords (EltTy.packing .f32)

variable [Facts₀]

def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf
def dot_S1600x128_S128x384_S1600x384_1_0_0_1_n_n : DotDims S1600x128 S128x384 S1600x384 where
  lhsContracting := [1]
  rhsContracting := [0]
  lhsNonContracting := [0]
  rhsNonContracting := [1]
  lhsBatch := []
  rhsBatch := []
  wf := dot_S1600x128_S128x384_S1600x384_1_0_0_1_n_n_wf

abbrev win0_0 : Pipeline.Window sig grid0 :=
  Pipeline.Window.ofSpec (Memref.whole main_arg0) S1600x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S128x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1600x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S200000x512 : Shape := ⟨2, ![200000, 512]⟩
abbrev S128x128 : Shape := ⟨2, ![128, 128]⟩
abbrev S128 : Shape := ⟨1, ![128]⟩
abbrev S256x128 : Shape := ⟨2, ![256, 128]⟩
abbrev S128x384 : Shape := ⟨2, ![128, 384]⟩
abbrev S384 : Shape := ⟨1, ![384]⟩
abbrev S200000x128 : Shape := ⟨2, ![200000, 128]⟩
abbrev S200000x384 : Shape := ⟨2, ![200000, 384]⟩
abbrev S200000x3x128 : Shape := ⟨3, ![200000, 3, 128]⟩
abbrev S1x1x128 : Shape := ⟨3, ![1, 1, 128]⟩
abbrev S_ : Shape := ⟨0, ![]⟩
abbrev S200000x256 : Shape := ⟨2, ![200000, 256]⟩
abbrev S1x128 : Shape := ⟨2, ![1, 128]⟩
abbrev S1x384 : Shape := ⟨2, ![1, 384]⟩
abbrev S200000x1x128 : Shape := ⟨3, ![200000, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S200000x128, .f32⟩
  | .hbm, ⟨10, _⟩ => ⟨S200000x384, .f32⟩
  | .hbm, ⟨11, _⟩ => ⟨S200000x3x128, .f32⟩
  | .hbm, ⟨12, _⟩ => ⟨S200000x3x128, .f32⟩
  | .hbm, ⟨13, _⟩ => ⟨S1x1x128, .f32⟩
  | .hbm, ⟨14, _⟩ => ⟨S200000x3x128, .f32⟩
  | .hbm, ⟨15, _⟩ => ⟨S200000x3x128, .f32⟩
  | .hbm, ⟨16, _⟩ => ⟨S200000x3x128, .f32⟩
  | .hbm, ⟨17, _⟩ => ⟨S1x1x128, .f32⟩
  | .hbm, ⟨18, _⟩ => ⟨S200000x3x128, .f32⟩
  | .hbm, ⟨19, _⟩ => ⟨S200000x3x128, .f32⟩
  | .hbm, ⟨20, _⟩ => ⟨S200000x3x128, .f32⟩
  | .hbm, ⟨21, _⟩ => ⟨S_, .f32⟩
  | .hbm, ⟨22, _⟩ => ⟨S200000x128, .f32⟩
  | .hbm, ⟨23, _⟩ => ⟨S200000x128, .f32⟩
  | .hbm, ⟨24, _⟩ => ⟨S200000x256, .f32⟩
  | .hbm, ⟨25, _⟩ => ⟨S200000x128, .f32⟩
  | .hbm, ⟨26, _⟩ => ⟨S1x128, .f32⟩
  | .hbm, ⟨27, _⟩ => ⟨S200000x128, .f32⟩
  | .hbm, ⟨28, _⟩ => ⟨S200000x128, .f32⟩
  | .hbm, ⟨29, _⟩ => ⟨S200000x128, .f32⟩
  | .hbm, ⟨30, _⟩ => ⟨S200000x128, .f32⟩
  | .hbm, ⟨31, _⟩ => ⟨S_, .f32⟩
  | .hbm, ⟨32, _⟩ => ⟨S200000x128, .f32⟩
  | .hbm, ⟨33, _⟩ => ⟨S200000x128, .f32⟩
  | .hbm, ⟨34, _⟩ => ⟨S_, .f32⟩
  | .hbm, ⟨35, _⟩ => ⟨S200000x128, .f32⟩
  | .hbm, ⟨36, _⟩ => ⟨S200000x128, .f32⟩
  | .hbm, ⟨37, _⟩ => ⟨S200000x128, .f32⟩
  | .hbm, ⟨38, _⟩ => ⟨S200000x384, .f32⟩
  | .hbm, ⟨39, _⟩ => ⟨S1x384, .f32⟩
  | .hbm, ⟨40, _⟩ => ⟨S200000x384, .f32⟩
  | .hbm, ⟨41, _⟩ => ⟨S200000x384, .f32⟩
  | .hbm, ⟨42, _⟩ => ⟨S200000x128, .f32⟩
  | .hbm, ⟨43, _⟩ => ⟨S200000x128, .f32⟩
  | .hbm, ⟨44, _⟩ => ⟨S200000x128, .f32⟩
  | .hbm, ⟨45, _⟩ => ⟨S200000x1x128, .f32⟩
  | .hbm, ⟨46, _⟩ => ⟨S200000x3x128, .f32⟩
  | .hbm, ⟨47, _⟩ => ⟨S200000x3x128, .f32⟩
  | .hbm, ⟨48, _⟩ => ⟨S200000x3x128, .f32⟩
  | .hbm, ⟨49, _⟩ => ⟨S_, .f32⟩
  | .hbm, ⟨50, _⟩ => ⟨S200000x128, .f32⟩
  | .hbm, ⟨51, _⟩ => ⟨S200000x128, .f32⟩
  | .hbm, ⟨52, _⟩ => ⟨S200000x128, .f32⟩
  | .hbm, ⟨53, _⟩ => ⟨S200000x384, .f32⟩
  | .hbm, ⟨54, _⟩ => ⟨S200000x512, .f32⟩
  | .hbm, ⟨55, _⟩ => ⟨S200000x512, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  slices_S200000x512_S200000x128_0_0 : S200000x512.Slices ![0, 0] S200000x128
  slices_S200000x512_S200000x384_0_128 : S200000x512.Slices ![0, 128] S200000x384
  shapeCasts_S200000x384_S200000x3x128 : S200000x384.ShapeCasts S200000x3x128
  bcast_S128_S1x1x128_2 : S128.BroadcastsInDim S1x1x128 (![2] : Fin 1 → Fin S1x1x128.rank)
  bcast_S1x1x128_S200000x3x128_0_1_2 : S1x1x128.BroadcastsInDim S200000x3x128 (![0, 1, 2] : Fin 3 → Fin S200000x3x128.rank)
  reducesTo_S200000x3x128_S200000x128_d1 : S200000x3x128.ReducesTo [1] S200000x128
  h_S_ : 0 < S_.numel
  concatenates_S200000x128_S200000x128_S200000x256_d1 : Shape.Concatenates [S200000x128, S200000x128] S200000x256 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S384_S1x384_1 : S384.BroadcastsInDim S1x384 (![1] : Fin 1 → Fin S1x384.rank)
  bcast_S1x384_S200000x384_0_1 : S1x384.BroadcastsInDim S200000x384 (![0, 1] : Fin 2 → Fin S200000x384.rank)
  slices_S200000x384_S200000x128_0_0 : S200000x384.Slices ![0, 0] S200000x128
  slices_S200000x384_S200000x128_0_128 : S200000x384.Slices ![0, 128] S200000x128
  slices_S200000x384_S200000x128_0_256 : S200000x384.Slices ![0, 256] S200000x128
  bcast_S200000x128_S200000x1x128_0_2 : S200000x128.BroadcastsInDim S200000x1x128 (![0, 2] : Fin 2 → Fin S200000x1x128.rank)
  bcast_S200000x1x128_S200000x3x128_0_1_2 : S200000x1x128.BroadcastsInDim S200000x3x128 (![0, 1, 2] : Fin 3 → Fin S200000x3x128.rank)
  shapeCasts_S200000x3x128_S200000x384 : S200000x3x128.ShapeCasts S200000x384
  concatenates_S200000x128_S200000x384_S200000x512_d1 : Shape.Concatenates [S200000x128, S200000x384] S200000x512 1
  dot_S200000x3x128_S128x128_S200000x3x128_2_0_01_1_n_n_wf : DotDims.WF S200000x3x128 S128x128 S200000x3x128 [2] [0] [0, 1] [1] [] []
  dot_S200000x256_S256x128_S200000x128_1_0_0_1_n_n_wf : DotDims.WF S200000x256 S256x128 S200000x128 [1] [0] [0] [1] [] []
  dot_S200000x128_S128x384_S200000x384_1_0_0_1_n_n_wf : DotDims.WF S200000x128 S128x384 S200000x384 [1] [0] [0] [1] [] []

variable [Facts₀]

def dot_S200000x3x128_S128x128_S200000x3x128_2_0_01_1_n_n : DotDims S200000x3x128 S128x128 S200000x3x128 where
  lhsContracting := [2]
  rhsContracting := [0]
  lhsNonContracting := [0, 1]
  rhsNonContracting := [1]
  lhsBatch := []
  rhsBatch := []
  wf := dot_S200000x3x128_S128x128_S200000x3x128_2_0_01_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x384_S200000x384_1_0_0_1_n_n : DotDims S200000x128 S128x384 S200000x384 where
  lhsContracting := [1]
  rhsContracting := [0]
  lhsNonContracting := [0]
  rhsNonContracting := [1]
  lhsBatch := []
  rhsBatch := []
  wf := dot_S200000x128_S128x384_S200000x384_1_0_0_1_n_n_wf

class Facts : Prop extends Facts₀ where

variable [Facts]
-- ==== Proof.Spec.lean ====
/-
  One node's update, as a function of that node's row of 512 features.

  A row holds the node's scalar features in columns 0–127 and the three components of its vector features in
  columns 128 + 128·c + f (c = 0, 1, 2; f < 128). With two linear maps U, V applied to each component,
      Uv c = v c · Uw + Ub,      Vv c = v c · Vw + Vb,
  the update is
      n      = sqrt (Vv 0 ² + Vv 1 ² + Vv 2 ²)                    (the norm over the three components)
      h      = n · A + s · B + b₁,    a = h · logistic h           (A, B the two halves of the first weight)
      g      = a · M₂ + b₂                                        (384 wide: three gates of 128)
      out s  = s + (g₁ · (Uv 0 · Vv 0 + Uv 1 · Vv 1 + Uv 2 · Vv 2) + g₂)
      out v c = v c + g₀ · Uv c
  everything on the extended reals, products over matrices being finite sums. Both programs compute this row by row.
-/
import Idealize.ShloMosaic.PureOps.Ideal
import Idealize.ShloMosaic.Lib.ValueIdx

noncomputable section

namespace Cert.NodeUpdate

open Idealize.ShloMosaic Idealize.ShloMosaic.ValueIdx

/-- The column of a row that holds scalar feature `f`. -/
def colS (f : Fin 128) : Fin 512 := ⟨f.val, by have := f.isLt; omega⟩

/-- The column of a row that holds component `c` of vector feature `f`. -/
def colV (c : Fin 3) (f : Fin 128) : Fin 512 :=
  ⟨128 + 128 * c.val + f.val, by have := c.isLt; have := f.isLt; omega⟩

/-- Gate `q` (0, 1 or 2) of feature `f` sits at column `128·q + f` of the 384 gate columns. -/
def colG (q : Fin 3) (f : Fin 128) : Fin 384 :=
  ⟨128 * q.val + f.val, by have := q.isLt; have := f.isLt; omega⟩

/-- The weights of the update: two linear maps on vector components, the first dense layer as its two halves
    (`A` meets the norms, `B` the scalars), and the second dense layer. -/
structure Weights where
  Uw : (⟨2, ![128, 128]⟩ : Shape).Idx → EReal
  Ub : (⟨1, ![128]⟩ : Shape).Idx → EReal
  Vw : (⟨2, ![128, 128]⟩ : Shape).Idx → EReal
  Vb : (⟨1, ![128]⟩ : Shape).Idx → EReal
  A : (⟨2, ![128, 128]⟩ : Shape).Idx → EReal
  B : (⟨2, ![128, 128]⟩ : Shape).Idx → EReal
  b₁ : (⟨1, ![128]⟩ : Shape).Idx → EReal
  M₂ : (⟨2, ![128, 384]⟩ : Shape).Idx → EReal
  b₂ : (⟨1, ![384]⟩ : Shape).Idx → EReal

variable (W : Weights) (s : Fin 128 → EReal) (v : Fin 3 → Fin 128 → EReal)

/-- A vector of 128 entries through a 128 × 128 matrix plus a bias, at output feature `g`. -/
def lin (M : (⟨2, ![128, 128]⟩ : Shape).Idx → EReal) (b : (⟨1, ![128]⟩ : Shape).Idx → EReal)
    (x : Fin 128 → EReal) (g : Fin 128) : EReal :=
  ∑ k : Fin 128, x k * M (ix2 k g) + b (ix1 g)

/-- `U` applied to component `c`. -/
def Uv (c : Fin 3) (g : Fin 128) : EReal := lin W.Uw W.Ub (v c) g

/-- `V` applied to component `c`. -/
def Vv (c : Fin 3) (g : Fin 128) : EReal := lin W.Vw W.Vb (v c) g

/-- The norm of `Vv` over the three components. -/
def nrm (g : Fin 128) : EReal :=
  Ideal.sqrt (Vv W v 0 g * Vv W v 0 g + Vv W v 1 g * Vv W v 1 g + Vv W v 2 g * Vv W v 2 g)

/-- The first dense layer before its activation: the norms through `A`, the scalars through `B`, the bias. -/
def hid (g : Fin 128) : EReal :=
  ∑ k : Fin 128, nrm W v k * W.A (ix2 k g) + ∑ k : Fin 128, s k * W.B (ix2 k g) + W.b₁ (ix1 g)

/-- The activation `h · logistic h`. -/
def act (g : Fin 128) : EReal := hid W s v g * Ideal.logistic (hid W s v g)

/-- The second dense layer: 384 gate values. -/
def gates (j : Fin 384) : EReal := ∑ k : Fin 128, act W s v k * W.M₂ (ix2 k j) + W.b₂ (ix1 j)

/-- The inner product of `Uv` and `Vv` over the three components. -/
def inner (f : Fin 128) : EReal :=
  Uv W v 0 f * Vv W v 0 f + Uv W v 1 f * Vv W v 1 f + Uv W v 2 f * Vv W v 2 f

/-- The updated scalar feature `f`. -/
def outS (f : Fin 128) : EReal :=
  s f + (gates W s v (colG 1 f) * inner W v f + gates W s v (colG 2 f))

/-- The updated component `c` of vector feature `f`. -/
def outV (c : Fin 3) (f : Fin 128) : EReal :=
  v c f + gates W s v (colG 0 f) * Uv W v c f

/-- The scalar features of a row. -/
def rowS (row : Fin 512 → EReal) : Fin 128 → EReal := fun f => row (colS f)

/-- The vector features of a row, by component. -/
def rowV (row : Fin 512 → EReal) : Fin 3 → Fin 128 → EReal := fun c f => row (colV c f)

/-- The updated row: scalars in columns 0–127, component `c` of feature `f` in column `128 + 128·c + f`. -/
def out (row : Fin 512 → EReal) (j : Fin 512) : EReal :=
  if h : j.val < 128 then outS W (rowS row) (rowV row) ⟨j.val, h⟩
  else outV W (rowS row) (rowV row) ⟨(j.val - 128) / 128, by have := j.isLt; omega⟩
    ⟨(j.val - 128) % 128, Nat.mod_lt _ (by omega)⟩

theorem out_colS (row : Fin 512 → EReal) (f : Fin 128) :
    out W row (colS f) = outS W (rowS row) (rowV row) f := by
  unfold out
  rw [dif_pos (show (colS f).val < 128 from f.isLt)]
  rfl

theorem out_colV (row : Fin 512 → EReal) (c : Fin 3) (f : Fin 128) :
    out W row (colV c f) = outV W (rowS row) (rowV row) c f := by
  have hc := c.isLt; have hf := f.isLt
  unfold out
  rw [dif_neg (show ¬ (colV c f).val < 128 by show ¬ 128 + 128 * c.val + f.val < 128; omega)]
  have e1 : (⟨((colV c f).val - 128) / 128, by have := (colV c f).isLt; omega⟩ : Fin 3) = c :=
    Fin.ext (by show (128 + 128 * c.val + f.val - 128) / 128 = c.val; omega)
  have e2 : (⟨((colV c f).val - 128) % 128, Nat.mod_lt _ (by omega)⟩ : Fin 128) = f :=
    Fin.ext (by show (128 + 128 * c.val + f.val - 128) % 128 = f.val; omega)
  rw [e1, e2]

/-- Every column of a row is a scalar column or a vector column. -/
theorem col_cases (j : Fin 512) : (∃ f, j = colS f) ∨ (∃ c f, j = colV c f) := by
  have hj := j.isLt
  by_cases h : j.val < 128
  · exact Or.inl ⟨⟨j.val, h⟩, Fin.ext rfl⟩
  · refine Or.inr ⟨⟨(j.val - 128) / 128, by omega⟩, ⟨(j.val - 128) % 128, Nat.mod_lt _ (by omega)⟩, Fin.ext ?_⟩
    show j.val = 128 + 128 * ((j.val - 128) / 128) + (j.val - 128) % 128
    omega

/-- The whole array of `N` nodes updated row by row. -/
def updateAll {N : ℕ} (x : (⟨2, ![N, 512]⟩ : Shape).Idx → EReal) : (⟨2, ![N, 512]⟩ : Shape).Idx → EReal :=
  fun i => out W (fun j => x (ix2 (i 0) j)) (i 1)

variable {W}

/-- The row-by-row update read at an index whose coordinates are `r` and `q`. -/
theorem updateAll_apply {N : ℕ} (W : Weights) (x : (⟨2, ![N, 512]⟩ : Shape).Idx → EReal) (i : (⟨2, ![N, 512]⟩ : Shape).Idx)
    (r : Fin N) (q : Fin 512) (hr : (i 0).val = r.val) (hq : (i 1).val = q.val) :
    updateAll W x i = out W (fun j => x (ix2 r j)) q := by
  obtain ⟨a, b, rfl⟩ : ∃ (a : Fin N) (b : Fin 512), i = ix2 a b := ⟨i 0, i 1, eq_ix2 i⟩
  obtain rfl : a = r := Fin.ext hr
  obtain rfl : b = q := Fin.ext hq
  rfl

/-! ## The first dense layer's weight as two halves -/

/-- The first 128 rows of a 256 × 128 matrix. -/
def topHalf (M : (⟨2, ![256, 128]⟩ : Shape).Idx → EReal) : (⟨2, ![128, 128]⟩ : Shape).Idx → EReal :=
  fun i => M (ix2 ⟨(i 0).val, by have := idx2_lt0 i; omega⟩ ⟨(i 1).val, idx2_lt1 i⟩)

/-- Its last 128 rows. -/
def botHalf (M : (⟨2, ![256, 128]⟩ : Shape).Idx → EReal) : (⟨2, ![128, 128]⟩ : Shape).Idx → EReal :=
  fun i => M (ix2 ⟨128 + (i 0).val, by have := idx2_lt0 i; omega⟩ ⟨(i 1).val, idx2_lt1 i⟩)

/-- The weights from the eight weight arrays, the first dense layer's 256 × 128 weight cut into its halves. -/
def weightsOf (Uw : (⟨2, ![128, 128]⟩ : Shape).Idx → EReal) (Ub : (⟨1, ![128]⟩ : Shape).Idx → EReal)
    (Vw : (⟨2, ![128, 128]⟩ : Shape).Idx → EReal) (Vb : (⟨1, ![128]⟩ : Shape).Idx → EReal)
    (M₁ : (⟨2, ![256, 128]⟩ : Shape).Idx → EReal) (b₁ : (⟨1, ![128]⟩ : Shape).Idx → EReal)
    (M₂ : (⟨2, ![128, 384]⟩ : Shape).Idx → EReal) (b₂ : (⟨1, ![384]⟩ : Shape).Idx → EReal) : Weights :=
  ⟨Uw, Ub, Vw, Vb, topHalf M₁, botHalf M₁, b₁, M₂, b₂⟩

/-- A sum over 256 indices is the sum over the first 128 plus the sum over the last 128. -/
theorem sum_halves (f : Fin 256 → EReal) :
    ∑ k : Fin 256, f k
      = ∑ k : Fin 128, f ⟨k.val, by have := k.isLt; omega⟩ + ∑ k : Fin 128, f ⟨128 + k.val, by have := k.isLt; omega⟩ :=
  Fin.sum_univ_add (a := 128) (b := 128) f

end Cert.NodeUpdate

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.KernelBody.lean ====
/-
  The kernel body's values at an entry of its 1600-row block.

  The body loads four 1600 × 128 slabs of the block (the scalar features and the three vector components), sends
  the components through the two 128 × 128 maps, and stores four 1600 × 128 slabs. Each stored slab, read at row `r`
  and feature `f`, is the node update of row `r`: a matrix product into a zero accumulator is the finite sum over the
  contracted index, a bias is one row broadcast over the 1600 rows, a change of float format is the identity on the
  extended reals, and everything else acts entry by entry.
-/
import proofs.«160822_j41291815584027_2_alg».proof.Proof.Gen.KernelIdeal.Skeleton
import proofs.«160822_j41291815584027_2_alg».proof.Proof.Spec
import proofs.«160822_j41291815584027_2_alg».proof.Proof.LibMatProduct
import Idealize.ShloMosaic.Lib.ValueLayout
import Idealize.ShloMosaic.Lib.Pipeline.Value

noncomputable section

namespace Cert.KernelBody

open Cert.KernelIdeal Cert.KernelIdeal.Gen Idealize.ShloMosaic Idealize.ShloMosaic.ValueIdx Cert.NodeUpdate

/-- A slab of 1600 rows through a 128 × 128 matrix into a zero accumulator, plus a bias row: at `(r, g)` it is
    `∑ k, a (r, k) · M (k, g) + b g`. -/
theorem linear_apply (a : FVec Ideal S1600x128 .f32) (M : FVec Ideal S128x128 .bf16) (b : FVec Ideal S128 .f32)
    (r : Fin 1600) (g : Fin 128) :
    addf (matmul dot_S1600x128_S128x128_S1600x128_1_0_0_1_n_n none (truncf .bf16 a bitsLt_bf16_f32)
        (shapeCast S128x128 M shapeCasts_S128x128_S128x128) (constant S1600x128 .f32 0x00000000#32))
      (broadcastTo S1600x128 (shapeCast S1x128 b shapeCasts_S128_S1x128) broadcasts_S1x128_S1600x128) (ix2 r g)
    = lin M b (fun k => a (ix2 r k)) g := by
  show matmul _ none _ _ _ (ix2 r g) + broadcastTo _ _ _ (ix2 r g) = _
  rw [broadcastTo_1b_ab_apply, shapeCast_a_1a_apply, shapeCast_self]
  refine congrArg (· + b (ix1 g)) ?_
  exact Cert.LibMatProduct.matmul_zero_apply _ none rfl rfl rfl rfl rfl rfl _ _ r g

/-- One of three, by a component index. -/
def pick3 {α : Type} (a b c : α) : Fin 3 → α
  | ⟨0, _⟩ => a
  | ⟨1, _⟩ => b
  | ⟨2, _⟩ => c
  | ⟨_ + 3, h⟩ => absurd h (Nat.not_lt.2 (Nat.le_add_left _ _))

section Body

variable (v0 v1 v2 v3 : FVec Ideal S1600x128 .f32)
  (x1 : FVec Ideal S128x128 .bf16) (x2 : FVec Ideal S128 .f32) (x3 : FVec Ideal S128x128 .bf16) (x4 : FVec Ideal S128 .f32)
  (x5 x6 : FVec Ideal S128x128 .bf16) (x7 : FVec Ideal S128 .f32) (x8 : FVec Ideal S128x384 .bf16) (x9 : FVec Ideal S384 .f32)

/-- The weights as the body finds them in its nine resident blocks. -/
def weights : Weights := ⟨x1, x2, x3, x4, x5, x6, x7, x8, x9⟩

/-- Row `r` of the scalar slab. -/
def sRow (r : Fin 1600) : Fin 128 → EReal := fun k => v0 (ix2 r k)

/-- Row `r` of the three component slabs. -/
def vRow (r : Fin 1600) : Fin 3 → Fin 128 → EReal := fun c k => pick3 v1 v2 v3 c (ix2 r k)

local notation "𝒲" => weights x1 x2 x3 x4 x5 x6 x7 x8 x9
local notation "𝓋" => vRow v1 v2 v3

/-! ## The two linear maps on the three components -/

theorem U0_apply (r : Fin 1600) (g : Fin 128) : k0_pay8 (F := Ideal) v1 x1 x2 (ix2 r g) = Uv 𝒲 (𝓋 r) 0 g :=
  linear_apply v1 x1 x2 r g
theorem U1_apply (r : Fin 1600) (g : Fin 128) : k0_pay9 (F := Ideal) v2 x1 x2 (ix2 r g) = Uv 𝒲 (𝓋 r) 1 g :=
  linear_apply v2 x1 x2 r g
theorem U2_apply (r : Fin 1600) (g : Fin 128) : k0_pay10 (F := Ideal) v3 x1 x2 (ix2 r g) = Uv 𝒲 (𝓋 r) 2 g :=
  linear_apply v3 x1 x2 r g
theorem V0_apply (r : Fin 1600) (g : Fin 128) : k0_pay11 (F := Ideal) v1 x3 x4 (ix2 r g) = Vv 𝒲 (𝓋 r) 0 g :=
  linear_apply v1 x3 x4 r g
theorem V1_apply (r : Fin 1600) (g : Fin 128) : k0_pay12 (F := Ideal) v2 x3 x4 (ix2 r g) = Vv 𝒲 (𝓋 r) 1 g :=
  linear_apply v2 x3 x4 r g
theorem V2_apply (r : Fin 1600) (g : Fin 128) : k0_pay13 (F := Ideal) v3 x3 x4 (ix2 r g) = Vv 𝒲 (𝓋 r) 2 g :=
  linear_apply v3 x3 x4 r g
theorem V0sq_apply (r : Fin 1600) (g : Fin 128) :
    k0_pay14 (F := Ideal) v1 x3 x4 (ix2 r g) = Vv 𝒲 (𝓋 r) 0 g * Vv 𝒲 (𝓋 r) 0 g :=
  congrArg₂ (· * ·) (V0_apply v1 v2 v3 x1 x2 x3 x4 x5 x6 x7 x8 x9 r g) (V0_apply v1 v2 v3 x1 x2 x3 x4 x5 x6 x7 x8 x9 r g)
theorem V1sq_apply (r : Fin 1600) (g : Fin 128) :
    k0_pay15 (F := Ideal) v2 x3 x4 (ix2 r g) = Vv 𝒲 (𝓋 r) 1 g * Vv 𝒲 (𝓋 r) 1 g :=
  congrArg₂ (· * ·) (V1_apply v1 v2 v3 x1 x2 x3 x4 x5 x6 x7 x8 x9 r g) (V1_apply v1 v2 v3 x1 x2 x3 x4 x5 x6 x7 x8 x9 r g)

/-! ## The dense layers -/

/-- The first dense layer's slab before its activation, from the scalar slab, the third component's `V` slab and the
    squares of the first two. -/
def hidSlab (p36 p37 p38 : FVec Ideal S1600x128 .f32) : FVec Ideal S1600x128 .f32 :=
  addf (addf
      (matmul dot_S1600x128_S128x128_S1600x128_1_0_0_1_n_n none
        (truncf .bf16 (sqrt (addf (addf p37 p38) (mulf p36 p36))) bitsLt_bf16_f32)
        (shapeCast S128x128 x5 shapeCasts_S128x128_S128x128) (constant S1600x128 .f32 0x00000000#32))
      (matmul dot_S1600x128_S128x128_S1600x128_1_0_0_1_n_n none (truncf .bf16 v0 bitsLt_bf16_f32)
        (shapeCast S128x128 x6 shapeCasts_S128x128_S128x128) (constant S1600x128 .f32 0x00000000#32)))
    (broadcastTo S1600x128 (shapeCast S1x128 x7 shapeCasts_S128_S1x128) broadcasts_S1x128_S1600x128)

theorem hidSlab_apply (p36 p37 p38 : FVec Ideal S1600x128 .f32) (r : Fin 1600) (vr : Fin 3 → Fin 128 → EReal)
    (h36 : ∀ k, p36 (ix2 r k) = Vv 𝒲 vr 2 k) (h37 : ∀ k, p37 (ix2 r k) = Vv 𝒲 vr 0 k * Vv 𝒲 vr 0 k)
    (h38 : ∀ k, p38 (ix2 r k) = Vv 𝒲 vr 1 k * Vv 𝒲 vr 1 k) (g : Fin 128) :
    hidSlab v0 x5 x6 x7 p36 p37 p38 (ix2 r g) = hid 𝒲 (sRow v0 r) vr g := by
  show (matmul _ none _ _ _ (ix2 r g) + matmul _ none _ _ _ (ix2 r g)) + broadcastTo _ _ _ (ix2 r g) = _
  rw [broadcastTo_1b_ab_apply, shapeCast_a_1a_apply, shapeCast_self, shapeCast_self]
  refine congrArg₂ (· + ·) (congrArg₂ (· + ·) ?_ ?_) rfl
  · refine (Cert.LibMatProduct.matmul_zero_apply _ none rfl rfl rfl rfl rfl rfl _ _ r g).trans ?_
    refine Finset.sum_congr rfl fun k _ => ?_
    show Ideal.sqrt ((p37 (ix2 r k) + p38 (ix2 r k)) + p36 (ix2 r k) * p36 (ix2 r k)) * x5 (ix2 k g) = nrm 𝒲 vr k * x5 (ix2 k g)
    rw [h36, h37, h38]
    rfl
  · exact Cert.LibMatProduct.matmul_zero_apply _ none rfl rfl rfl rfl rfl rfl _ _ r g

/-- The 384 gate values of row `r`. -/
theorem gates_apply (p36 p37 p38 : FVec Ideal S1600x128 .f32) (r : Fin 1600) (vr : Fin 3 → Fin 128 → EReal)
    (h36 : ∀ k, p36 (ix2 r k) = Vv 𝒲 vr 2 k) (h37 : ∀ k, p37 (ix2 r k) = Vv 𝒲 vr 0 k * Vv 𝒲 vr 0 k)
    (h38 : ∀ k, p38 (ix2 r k) = Vv 𝒲 vr 1 k * Vv 𝒲 vr 1 k) (j : Fin 384) :
    k0_pay16 (F := Ideal) v0 p36 p37 p38 x5 x6 x7 x8 x9 (ix2 r j) = gates 𝒲 (sRow v0 r) vr j := by
  show matmul _ none (truncf .bf16 (mulf (hidSlab v0 x5 x6 x7 p36 p37 p38) (logistic (hidSlab v0 x5 x6 x7 p36 p37 p38))) bitsLt_bf16_f32) _ _ (ix2 r j)
    + broadcastTo _ _ _ (ix2 r j) = _
  rw [broadcastTo_1b_ab_apply, shapeCast_a_1a_apply, shapeCast_self]
  refine congrArg₂ (· + ·) ?_ rfl
  refine (Cert.LibMatProduct.matmul_zero_apply _ none rfl rfl rfl rfl rfl rfl _ _ r j).trans ?_
  refine Finset.sum_congr rfl fun k _ => ?_
  refine congrArg (· * x8 (ix2 k j)) ?_
  show hidSlab v0 x5 x6 x7 p36 p37 p38 (ix2 r k) * Ideal.logistic (hidSlab v0 x5 x6 x7 p36 p37 p38 (ix2 r k)) = _
  rw [hidSlab_apply v0 x1 x2 x3 x4 x5 x6 x7 x8 x9 p36 p37 p38 r vr h36 h37 h38 k]
  rfl

/-- The gates of row `r` from the slabs the body really passes. -/
theorem gates_row (r : Fin 1600) (j : Fin 384) :
    k0_pay16 (F := Ideal) v0 (k0_pay13 (F := Ideal) v3 x3 x4) (k0_pay14 (F := Ideal) v1 x3 x4) (k0_pay15 (F := Ideal) v2 x3 x4) x5 x6 x7 x8 x9 (ix2 r j)
      = gates 𝒲 (sRow v0 r) (𝓋 r) j :=
  gates_apply v0 x1 x2 x3 x4 x5 x6 x7 x8 x9 _ _ _ r (𝓋 r)
    (fun k => V2_apply v1 v2 v3 x1 x2 x3 x4 x5 x6 x7 x8 x9 r k)
    (fun k => V0sq_apply v1 v2 v3 x1 x2 x3 x4 x5 x6 x7 x8 x9 r k)
    (fun k => V1sq_apply v1 v2 v3 x1 x2 x3 x4 x5 x6 x7 x8 x9 r k) j

/-! ## The vector slabs' payloads, unfolded once -/

theorem pay21_unfold (p16 p36 p37 p38 : FVec Ideal S1600x128 .f32) (i : S1600x128.Idx) :
    k0_pay21 (F := Ideal) v0 v1 p16 p36 p37 p38 x5 x6 x7 x8 x9 i
      = v1 i + extractStridedSlice (s := S1600x384) S1600x128 ![0, 0] (k0_pay16 (F := Ideal) v0 p36 p37 p38 x5 x6 x7 x8 x9)
          slices_S1600x384_o0_0_S1600x128 i * p16 i := rfl

theorem pay18_unfold (p20 p36 p37 p38 : FVec Ideal S1600x128 .f32) (i : S1600x128.Idx) :
    k0_pay1 (F := Ideal) v2 (k0_pay18 (F := Ideal) v0 p20 p36 p37 p38 x5 x6 x7 x8 x9) i
      = v2 i + extractStridedSlice (s := S1600x384) S1600x128 ![0, 0] (k0_pay16 (F := Ideal) v0 p36 p37 p38 x5 x6 x7 x8 x9)
          slices_S1600x384_o0_0_S1600x128 i * p20 i := rfl

theorem pay19_unfold (p24 p36 p37 p38 : FVec Ideal S1600x128 .f32) (i : S1600x128.Idx) :
    k0_pay2 (F := Ideal) v3 (k0_pay19 (F := Ideal) v0 p24 p36 p37 p38 x5 x6 x7 x8 x9) i
      = v3 i + extractStridedSlice (s := S1600x384) S1600x128 ![0, 0] (k0_pay16 (F := Ideal) v0 p36 p37 p38 x5 x6 x7 x8 x9)
          slices_S1600x384_o0_0_S1600x128 i * p24 i := rfl

/-! ## The four stored slabs -/

/-- The slab stored at columns 0–127, at row `r` and feature `f`: the updated scalar feature. -/
theorem storeS_apply (r : Fin 1600) (f : Fin 128) :
    k0_pay20 (F := Ideal) v0 (k0_pay8 (F := Ideal) v1 x1 x2) (k0_pay9 (F := Ideal) v2 x1 x2) (k0_pay10 (F := Ideal) v3 x1 x2)
      (k0_pay11 (F := Ideal) v1 x3 x4) (k0_pay12 (F := Ideal) v2 x3 x4) (k0_pay13 (F := Ideal) v3 x3 x4)
      (k0_pay14 (F := Ideal) v1 x3 x4) (k0_pay15 (F := Ideal) v2 x3 x4) x5 x6 x7 x8 x9 (ix2 r f)
      = outS 𝒲 (sRow v0 r) (𝓋 r) f := by
  show v0 (ix2 r f) + (extractStridedSlice (s := S1600x384) S1600x128 ![0, 128] _ slices_S1600x384_o0_128_S1600x128 (ix2 r f)
        * ((k0_pay8 (F := Ideal) v1 x1 x2 (ix2 r f) * k0_pay11 (F := Ideal) v1 x3 x4 (ix2 r f)
            + k0_pay9 (F := Ideal) v2 x1 x2 (ix2 r f) * k0_pay12 (F := Ideal) v2 x3 x4 (ix2 r f))
          + k0_pay10 (F := Ideal) v3 x1 x2 (ix2 r f) * k0_pay13 (F := Ideal) v3 x3 x4 (ix2 r f))
      + extractStridedSlice (s := S1600x384) S1600x128 ![0, 256] _ slices_S1600x384_o0_256_S1600x128 (ix2 r f)) = _
  rw [slice2_axis1_eq, slice2_axis1_eq, gates_row v0 v1 v2 v3 x1 x2 x3 x4 x5 x6 x7 x8 x9,
    gates_row v0 v1 v2 v3 x1 x2 x3 x4 x5 x6 x7 x8 x9,
    U0_apply v1 v2 v3 x1 x2 x3 x4 x5 x6 x7 x8 x9, U1_apply v1 v2 v3 x1 x2 x3 x4 x5 x6 x7 x8 x9,
    U2_apply v1 v2 v3 x1 x2 x3 x4 x5 x6 x7 x8 x9, V0_apply v1 v2 v3 x1 x2 x3 x4 x5 x6 x7 x8 x9,
    V1_apply v1 v2 v3 x1 x2 x3 x4 x5 x6 x7 x8 x9, V2_apply v1 v2 v3 x1 x2 x3 x4 x5 x6 x7 x8 x9]
  rfl

/-- The slab stored at columns 128–255: the updated first component. -/
theorem storeV0_apply (r : Fin 1600) (f : Fin 128) :
    k0_pay21 (F := Ideal) v0 v1 (k0_pay8 (F := Ideal) v1 x1 x2) (k0_pay13 (F := Ideal) v3 x3 x4)
      (k0_pay14 (F := Ideal) v1 x3 x4) (k0_pay15 (F := Ideal) v2 x3 x4) x5 x6 x7 x8 x9 (ix2 r f)
      = outV 𝒲 (sRow v0 r) (𝓋 r) 0 f := by
  rw [pay21_unfold, slice2_axis1_eq, gates_row v0 v1 v2 v3 x1 x2 x3 x4 x5 x6 x7 x8 x9, U0_apply v1 v2 v3 x1 x2 x3 x4 x5 x6 x7 x8 x9]
  rfl

/-- The slab stored at columns 256–383: the updated second component. -/
theorem storeV1_apply (r : Fin 1600) (f : Fin 128) :
    k0_pay1 (F := Ideal) v2 (k0_pay18 (F := Ideal) v0 (k0_pay9 (F := Ideal) v2 x1 x2) (k0_pay13 (F := Ideal) v3 x3 x4)
      (k0_pay14 (F := Ideal) v1 x3 x4) (k0_pay15 (F := Ideal) v2 x3 x4) x5 x6 x7 x8 x9) (ix2 r f)
      = outV 𝒲 (sRow v0 r) (𝓋 r) 1 f := by
  rw [pay18_unfold, slice2_axis1_eq, gates_row v0 v1 v2 v3 x1 x2 x3 x4 x5 x6 x7 x8 x9, U1_apply v1 v2 v3 x1 x2 x3 x4 x5 x6 x7 x8 x9]
  rfl

/-- The slab stored at columns 384–511: the updated third component. -/
theorem storeV2_apply (r : Fin 1600) (f : Fin 128) :
    k0_pay2 (F := Ideal) v3 (k0_pay19 (F := Ideal) v0 (k0_pay10 (F := Ideal) v3 x1 x2) (k0_pay13 (F := Ideal) v3 x3 x4)
      (k0_pay14 (F := Ideal) v1 x3 x4) (k0_pay15 (F := Ideal) v2 x3 x4) x5 x6 x7 x8 x9) (ix2 r f)
      = outV 𝒲 (sRow v0 r) (𝓋 r) 2 f := by
  rw [pay19_unfold, slice2_axis1_eq, gates_row v0 v1 v2 v3 x1 x2 x3 x4 x5 x6 x7 x8 x9, U2_apply v1 v2 v3 x1 x2 x3 x4 x5 x6 x7 x8 x9]
  rfl

end Body

end Cert.KernelBody

end
-- ==== Proof.KernelBlock.lean ====
/-
  The kernel body on one block: the 1600 × 512 block it leaves is the row-by-row update of the block it was given.

  The four stores write the column slabs 0–127, 128–255, 256–383 and 384–511, which tile the block; the four loads
  read the same slabs of the input block. So the stored entry at row `r` and column `128·q + f` is the update of
  the input block's row `r` at that column, and the block as a whole is the update of every row.
-/
import proofs.«160822_j41291815584027_2_alg».proof.Proof.Gen.KernelIdeal.Frame
import proofs.«160822_j41291815584027_2_alg».proof.Proof.KernelBody

noncomputable section

namespace Cert.KernelBlock

open Cert.KernelIdeal Cert.KernelIdeal.Gen Idealize.ShloMosaic Idealize.ShloMosaic.ValueIdx Cert.NodeUpdate Cert.KernelBody

theorem zeros2 : (![0, 0] : Fin 2 → Nat) = fun _ => 0 := funext fun a => by fin_cases a <;> rfl
theorem zeros1 : (![0] : Fin 1 → Nat) = fun _ => 0 := funext fun a => by fin_cases a <;> rfl

/-- A 1600 × 128 slab loaded from column offset `o` of the block reads the block at column `o + k`. -/
theorem slab_apply (x0 : Vec Ideal S1600x512 .f32) (o : ℕ) (inb : ∀ a, (![0, o] : Fin 2 → Nat) a + S1600x128.size a ≤ S1600x512.size a)
    (r : Fin 1600) (k : Fin 128) (q : Fin 512) (hq : q.val = o + k.val) :
    View.ld x0 (Rect.unit (s := S1600x512) ![0, o] S1600x128.size inb) (ix2 r k) = x0 (ix2 r q) := by
  show x0 ((Rect.unit (s := S1600x512) ![0, o] S1600x128.size inb).emb (ix2 r k)) = _
  refine congrArg x0 (funext fun a => Fin.ext ?_)
  match a with
  | ⟨0, _⟩ => show 0 + 1 * r.val = r.val; omega
  | ⟨1, _⟩ => show o + 1 * k.val = q.val; omega

/-- Row `r` of the slab loaded at columns 0–127 is the scalar part of row `r` of the block. -/
theorem sRow_ld (x0 : Vec Ideal S1600x512 .f32) (r : Fin 1600) :
    sRow (View.ld x0 r0_0) r = rowS (fun j => x0 (ix2 r j)) :=
  funext fun k => slab_apply x0 0 _ r k (colS k) (by show k.val = 0 + k.val; omega)

/-- Row `r` of the three slabs loaded at columns 128–511 is the vector part of row `r` of the block. -/
theorem vRow_ld (x0 : Vec Ideal S1600x512 .f32) (r : Fin 1600) :
    vRow (View.ld x0 r0_1) (View.ld x0 r0_2) (View.ld x0 r0_3) r = rowV (fun j => x0 (ix2 r j)) := by
  funext c k
  match c with
  | ⟨0, _⟩ => exact slab_apply x0 128 _ r k (colV 0 k) (by show 128 + 128 * 0 + k.val = 128 + k.val; omega)
  | ⟨1, _⟩ => exact slab_apply x0 256 _ r k (colV 1 k) (by show 128 + 128 * 1 + k.val = 256 + k.val; omega)
  | ⟨2, _⟩ => exact slab_apply x0 384 _ r k (colV 2 k) (by show 128 + 128 * 2 + k.val = 384 + k.val; omega)
  | ⟨_ + 3, h⟩ => exact absurd h (by omega)

/-- What the body leaves in the output block: the update of every row of the input block, with the weights as the
    nine resident blocks hold them. -/
theorem body_block (x0 : Vec Ideal S1600x512 .f32) (x1 : Vec Ideal S128x128 .bf16) (x2 : Vec Ideal S128 .f32)
    (x3 : Vec Ideal S128x128 .bf16) (x4 : Vec Ideal S128 .f32) (x5 : Vec Ideal S128x128 .bf16) (x6 : Vec Ideal S128x128 .bf16)
    (x7 : Vec Ideal S128 .f32) (x8 : Vec Ideal S128x384 .bf16) (x9 : Vec Ideal S384 .f32) :
    out0_10 (F := Ideal) x0 x1 x2 x3 x4 x5 x6 x7 x8 x9 = updateAll (weights x1 x2 x3 x4 x5 x6 x7 x8 x9) x0 := by
  unfold out0_10
  simp only [View.ld_unit_zero (S := S128x128) zeros2, View.ld_unit_zero (S := S128) zeros1,
    View.ld_unit_zero (S := S128x384) zeros2, View.ld_unit_zero (S := S384) zeros1]
  funext y
  refine View.canon_apply_of_pieces (Val := Elt Ideal) (S := S1600x512) (e := .f32) (updateAll (weights x1 x2 x3 x4 x5 x6 x7 x8 x9) x0) _ ?_ y (cover0_10 _ _ _ _ y)
  intro p hp
  rcases List.mem_cons.mp hp with rfl | hp
  · intro x
    obtain ⟨r, f, rfl⟩ : ∃ (r : Fin 1600) (f : Fin 128), x = ix2 r f := ⟨x 0, x 1, eq_ix2 x⟩
    refine Eq.trans ?_ (updateAll_apply _ x0 _ r (colV 2 f) (by show 0 + 1 * r.val = r.val; omega)
      (by show 384 + 1 * f.val = 128 + 128 * 2 + f.val; omega)).symm
    rw [out_colV, ← sRow_ld, ← vRow_ld]
    exact storeV2_apply (View.ld x0 r0_0) (View.ld x0 r0_1) (View.ld x0 r0_2) (View.ld x0 r0_3) x1 x2 x3 x4 x5 x6 x7 x8 x9 r f
  rcases List.mem_cons.mp hp with rfl | hp
  · intro x
    obtain ⟨r, f, rfl⟩ : ∃ (r : Fin 1600) (f : Fin 128), x = ix2 r f := ⟨x 0, x 1, eq_ix2 x⟩
    refine Eq.trans ?_ (updateAll_apply _ x0 _ r (colV 1 f) (by show 0 + 1 * r.val = r.val; omega)
      (by show 256 + 1 * f.val = 128 + 128 * 1 + f.val; omega)).symm
    rw [out_colV, ← sRow_ld, ← vRow_ld]
    exact storeV1_apply (View.ld x0 r0_0) (View.ld x0 r0_1) (View.ld x0 r0_2) (View.ld x0 r0_3) x1 x2 x3 x4 x5 x6 x7 x8 x9 r f
  rcases List.mem_cons.mp hp with rfl | hp
  · intro x
    obtain ⟨r, f, rfl⟩ : ∃ (r : Fin 1600) (f : Fin 128), x = ix2 r f := ⟨x 0, x 1, eq_ix2 x⟩
    refine Eq.trans ?_ (updateAll_apply _ x0 _ r (colV 0 f) (by show 0 + 1 * r.val = r.val; omega)
      (by show 128 + 1 * f.val = 128 + 128 * 0 + f.val; omega)).symm
    rw [out_colV, ← sRow_ld, ← vRow_ld]
    exact storeV0_apply (View.ld x0 r0_0) (View.ld x0 r0_1) (View.ld x0 r0_2) (View.ld x0 r0_3) x1 x2 x3 x4 x5 x6 x7 x8 x9 r f
  rcases List.mem_cons.mp hp with rfl | hp
  · intro x
    obtain ⟨r, f, rfl⟩ : ∃ (r : Fin 1600) (f : Fin 128), x = ix2 r f := ⟨x 0, x 1, eq_ix2 x⟩
    refine Eq.trans ?_ (updateAll_apply _ x0 _ r (colS f) (by show 0 + 1 * r.val = r.val; omega)
      (by show 0 + 1 * f.val = f.val; omega)).symm
    rw [out_colS, ← sRow_ld, ← vRow_ld]
    exact storeS_apply (View.ld x0 r0_0) (View.ld x0 r0_1) (View.ld x0 r0_2) (View.ld x0 r0_3) x1 x2 x3 x4 x5 x6 x7 x8 x9 r f
  · exact absurd hp List.not_mem_nil

end Cert.KernelBlock

end
-- ==== Proof.KernelArray.lean ====
/-
  From blocks to the array: the kernel's result array is the row-by-row update of the node features.

  The grid has 125 points; point `t` is given rows `1600·t … 1600·t + 1599` of the node features and every weight
  whole, and writes back rows `1600·t … 1600·t + 1599` of the result. Before the grid the host only changes float
  formats (the identity on the extended reals) and cuts the first dense layer's 256 × 128 weight into its two halves.
  The body updates every row of its block, so point `t` writes back block `t` of the row-by-row update of the whole
  array; row `n` lies in the block of point `n / 1600`, so the blocks cover the array.
-/
import proofs.«160822_j41291815584027_2_alg».proof.Proof.Gen.KernelIdeal.Value
import proofs.«160822_j41291815584027_2_alg».proof.Proof.KernelBlock
import Idealize.ShloMosaic.Lib.StableHlo.Run

noncomputable section

namespace Cert.KernelArray

open Cert.KernelIdeal Cert.KernelIdeal.Gen Idealize.ShloMosaic Idealize.ShloMosaic.TcCoe Idealize.SL.Sem
open Idealize.ShloMosaic.ValueIdx Idealize.ShloMosaic.StableHlo Cert.NodeUpdate Cert.KernelBody Cert.KernelBlock
open Idealize.ShloMosaic.Pipeline (Dat)

variable (m : (ℓ : Loc nD τ sig) → Buf (Elt Ideal) ℓ) (ρ : Dev nD → PrngReg)

/-- The node features as launched. -/
abbrev feats (c : Dev nD) : S200000x512.Idx → EReal := (m ((c : Thread nD τ).loc main_arg0))

/-- The weights as launched. -/
def launched (c : Dev nD) : Weights :=
  weightsOf (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-! ## What the host leaves in the weight windows' arrays -/

theorem entry_Uw (c : Dev nD) : (V m c main_v0 : S128x128.Idx → EReal) = (m ((c : Thread nD τ).loc main_arg1)) := by
  dsimp only [V, hostOps0]; after_results; rfl

theorem entry_Vw (c : Dev nD) : (V m c main_v1 : S128x128.Idx → EReal) = (m ((c : Thread nD τ).loc main_arg3)) := by
  dsimp only [V, hostOps0]; after_results; rfl

theorem entry_M₂ (c : Dev nD) : (V m c main_v6 : S128x384.Idx → EReal) = (m ((c : Thread nD τ).loc main_arg7)) := by
  dsimp only [V, hostOps0]; after_results; rfl

theorem entry_A (c : Dev nD) : (V m c main_v3 : S128x128.Idx → EReal) = topHalf (m ((c : Thread nD τ).loc main_arg5)) := by
  have e : (V m c main_v3 : S128x128.Idx → EReal)
      = (truncf (F := Ideal) .bf16 (extractStridedSlice (s := S256x128) S128x128 ![0, 0] (m ((c : Thread nD τ).loc main_arg5)) slices_S256x128_S128x128_0_0) bitsLt_bf16_f32 : S128x128.Idx → EReal) := by
    dsimp only [V, hostOps0]; after_results
  rw [e]
  funext i
  obtain ⟨a, b, rfl⟩ : ∃ (a : Fin 128) (b : Fin 128), i = ix2 a b := ⟨i 0, i 1, eq_ix2 i⟩
  exact slice2_axis0_apply 0 (m ((c : Thread nD τ).loc main_arg5)) slices_S256x128_S128x128_0_0 a b ⟨a.val, by have := a.isLt; omega⟩ (Nat.zero_add _).symm

theorem entry_B (c : Dev nD) : (V m c main_v5 : S128x128.Idx → EReal) = botHalf (m ((c : Thread nD τ).loc main_arg5)) := by
  have e : (V m c main_v5 : S128x128.Idx → EReal)
      = (truncf (F := Ideal) .bf16 (extractStridedSlice (s := S256x128) S128x128 ![128, 0] (m ((c : Thread nD τ).loc main_arg5)) slices_S256x128_S128x128_128_0) bitsLt_bf16_f32 : S128x128.Idx → EReal) := by
    dsimp only [V, hostOps0]; after_results
  rw [e]
  funext i
  obtain ⟨a, b, rfl⟩ : ∃ (a : Fin 128) (b : Fin 128), i = ix2 a b := ⟨i 0, i 1, eq_ix2 i⟩
  exact slice2_axis0_apply 128 (m ((c : Thread nD τ).loc main_arg5)) slices_S256x128_S128x128_128_0 a b ⟨128 + a.val, by have := a.isLt; omega⟩ rfl

/-- The weights the body finds in the nine resident windows' arrays are the launched ones. -/
theorem entry_weights (c : Dev nD) :
    weights (V m c main_v0) (V m c main_arg2) (V m c main_v1) (V m c main_arg4) (V m c main_v3) (V m c main_v5)
      (V m c main_arg6) (V m c main_v6) (V m c main_arg8) = launched m c := by
  unfold weights launched weightsOf
  rw [entry_Uw, entry_Vw, entry_M₂, entry_A, entry_B, V_main_arg2, V_main_arg4, V_main_arg6, V_main_arg8]

/-! ## The index maps over the grid -/

/-- The streamed windows (the node features in, the result out) move one block of rows per point, all columns. -/
theorem idx_streamed : ∀ t : Fin cfg0.N,
    win0_0.index t (0 : Fin 2) = t.val ∧ win0_0.index t (1 : Fin 2) = 0
    ∧ win0_10.index t (0 : Fin 2) = t.val ∧ win0_10.index t (1 : Fin 2) = 0 ∧ t.val < 125 :=
  (by decide +kernel : ∀ t : Fin grid0.N, _)

/-- The nine weight windows stay at block zero. -/
theorem idx_resident : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-- Window 1 holds its whole array at every point. -/
theorem resident1 (c : Dev nD) (t : Fin cfg0.N) : iblk m c 1 t = V m c main_v0 := by
  obtain ⟨e0, e1, _, _, _, _, _, _, _, _, _, _, _, _⟩ := idx_resident t
  funext y
  show V m c main_v0 (((cfg0.win 1).blk t).view.emb y) = V m c main_v0 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Window 2 holds its whole array at every point. -/
theorem resident2 (c : Dev nD) (t : Fin cfg0.N) : iblk m c 2 t = V m c main_arg2 := by
  obtain ⟨_, _, e0, _, _, _, _, _, _, _, _, _, _, _⟩ := idx_resident t
  funext y
  show V m c main_arg2 (((cfg0.win 2).blk t).view.emb y) = V m c main_arg2 y
  refine congrArg _ (funext fun a => Fin.ext ?_)
  match a with
  | ⟨0, _⟩ => show win0_2.index t (0 : Fin 1) * 128 + 1 * (y 0).val = (y 0).val; rw [e0]; omega

/-- Window 3 holds its whole array at every point. -/
theorem resident3 (c : Dev nD) (t : Fin cfg0.N) : iblk m c 3 t = V m c main_v1 := by
  obtain ⟨_, _, _, e0, e1, _, _, _, _, _, _, _, _, _⟩ := idx_resident t
  funext y
  show V m c main_v1 (((cfg0.win 3).blk t).view.emb y) = V m c main_v1 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4 holds its whole array at every point. -/
theorem resident4 (c : Dev nD) (t : Fin cfg0.N) : iblk m c 4 t = V m c main_arg4 := by
  obtain ⟨_, _, _, _, _, e0, _, _, _, _, _, _, _, _⟩ := idx_resident t
  funext y
  show V m c main_arg4 (((cfg0.win 4).blk t).view.emb y) = V m c main_arg4 y
  refine congrArg _ (funext fun a => Fin.ext ?_)
  match a with
  | ⟨0, _⟩ => show win0_4.index t (0 : Fin 1) * 128 + 1 * (y 0).val = (y 0).val; rw [e0]; omega

/-- Window 5 holds its whole array at every point. -/
theorem resident5 (c : Dev nD) (t : Fin cfg0.N) : iblk m c 5 t = V m c main_v3 := by
  obtain ⟨_, _, _, _, _, _, e0, e1, _, _, _, _, _, _⟩ := idx_resident t
  funext y
  show V m c main_v3 (((cfg0.win 5).blk t).view.emb y) = V m c main_v3 y
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Window 6 holds its whole array at every point. -/
theorem resident6 (c : Dev nD) (t : Fin cfg0.N) : iblk m c 6 t = V m c main_v5 := by
  obtain ⟨_, _, _, _, _, _, _, _, e0, e1, _, _, _, _⟩ := idx_resident t
  funext y
  show V m c main_v5 (((cfg0.win 6).blk t).view.emb y) = V m c main_v5 y
  refine congrArg _ (funext fun a => Fin.ext ?_)
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-- Window 7 holds its whole array at every point. -/
theorem resident7 (c : Dev nD) (t : Fin cfg0.N) : iblk m c 7 t = V m c main_arg6 := by
  obtain ⟨_, _, _, _, _, _, _, _, _, _, e0, _, _, _⟩ := idx_resident t
  funext y
  show V m c main_arg6 (((cfg0.win 7).blk t).view.emb y) = V m c main_arg6 y
  refine congrArg _ (funext fun a => Fin.ext ?_)
  match a with
  | ⟨0, _⟩ => show win0_7.index t (0 : Fin 1) * 128 + 1 * (y 0).val = (y 0).val; rw [e0]; omega

/-- Window 8 holds its whole array at every point. -/
theorem resident8 (c : Dev nD) (t : Fin cfg0.N) : iblk m c 8 t = V m c main_v6 := by
  obtain ⟨_, _, _, _, _, _, _, _, _, _, _, e0, e1, _⟩ := idx_resident t
  funext y
  show V m c main_v6 (((cfg0.win 8).blk t).view.emb y) = V m c main_v6 y
  refine congrArg _ (funext fun a => Fin.ext ?_)
  match a with
  | ⟨0, _⟩ => show win0_8.index t (0 : Fin 2) * 128 + 1 * (y 0).val = (y 0).val; rw [e0]; omega
  | ⟨1, _⟩ => show win0_8.index t (1 : Fin 2) * 384 + 1 * (y 1).val = (y 1).val; rw [e1]; omega

/-- Window 9 holds its whole array at every point. -/
theorem resident9 (c : Dev nD) (t : Fin cfg0.N) : iblk m c 9 t = V m c main_arg8 := by
  obtain ⟨_, _, _, _, _, _, _, _, _, _, _, _, _, e0⟩ := idx_resident t
  funext y
  show V m c main_arg8 (((cfg0.win 9).blk t).view.emb y) = V m c main_arg8 y
  refine congrArg _ (funext fun a => Fin.ext ?_)
  match a with
  | ⟨0, _⟩ => show win0_9.index t (0 : Fin 1) * 384 + 1 * (y 0).val = (y 0).val; rw [e0]; omega

/-- Row `r` of the block of node features at point `t` is row `1600·t + r` of the array. -/
theorem streamed_apply (c : Dev nD) (t : Fin cfg0.N) (r : Fin 1600) (j : Fin 512) (n : Fin 200000)
    (hn : n.val = t.val * 1600 + r.val) : iblk m c 0 t (ix2 r j) = feats m c (ix2 n j) := by
  obtain ⟨e0, e1, -⟩ := idx_streamed t
  show V m c main_arg0 (((cfg0.win 0).blk t).view.emb (ix2 r j)) = _
  rw [V_main_arg0]
  refine congrArg _ (funext fun a => Fin.ext ?_)
  match a with
  | ⟨0, _⟩ => show win0_0.index t (0 : Fin 2) * 1600 + 1 * r.val = n.val; rw [e0]; omega
  | ⟨1, _⟩ => show win0_0.index t (1 : Fin 2) * 512 + 1 * j.val = j.val; rw [e1]; omega

/-! ## What a point writes back, and the cover -/

/-- Point `t` writes back block `t` of the row-by-row update of the node features. -/
theorem flushed_eq (c : Dev nD) (t : Fin cfg0.N) :
    (dats m 0 c).flushed 10 t
      = ((cfg0.win 10).blk t).view.read (Elt Ideal) (updateAll (launched m c) (feats m c)) := by
  rw [Cert.KernelIdeal.Value.flushed10,
    body_block (iblk m c 0 t) (iblk m c 1 t) (iblk m c 2 t) (iblk m c 3 t) (iblk m c 4 t) (iblk m c 5 t)
      (iblk m c 6 t) (iblk m c 7 t) (iblk m c 8 t) (iblk m c 9 t),
    resident1, resident2, resident3, resident4, resident5, resident6, resident7, resident8, resident9, entry_weights]
  funext y
  obtain ⟨r, q, rfl⟩ : ∃ (r : Fin 1600) (q : Fin 512), y = ix2 r q := ⟨y 0, y 1, eq_ix2 y⟩
  obtain ⟨-, -, e0, e1, ht⟩ := idx_streamed t
  have hr := r.isLt
  show updateAll (launched m c) (iblk m c 0 t) (ix2 r q)
    = updateAll (launched m c) (feats m c) (((cfg0.win 10).blk t).view.emb (ix2 r q))
  rw [updateAll_apply (launched m c) (feats m c) _ ⟨t.val * 1600 + r.val, by omega⟩ q
    (by show win0_10.index t (0 : Fin 2) * 1600 + 1 * r.val = t.val * 1600 + r.val; rw [e0]; omega)
    (by show win0_10.index t (1 : Fin 2) * 512 + 1 * q.val = q.val; rw [e1]; omega)]
  show out (launched m c) (fun j => iblk m c 0 t (ix2 r j)) q = _
  refine congrArg (fun row => out (launched m c) row q) (funext fun j => ?_)
  exact streamed_apply m c t r j _ rfl

/-- An index of the array is in point `t`'s block iff each coordinate is in the block's range on its axis. -/
theorem mem_blk (t : Fin cfg0.N) (i : S200000x512.Idx) :
    i ∈ ((cfg0.win 10).blk t).view.set ↔ ∀ a : Fin 2, win0_10.index t a * S1600x512.size a ≤ (i a).val
      ∧ (i a).val < win0_10.index t a * S1600x512.size a + S1600x512.size a := by
  show i ∈ ((View.whole main_v7).slice (win0_10.rect t)).set ↔ _
  rw [View.set_slice_whole, Rect.mem_set_unit]
  exact Iff.rfl

/-- Row `n` is in the block of point `n / 1600`. -/
theorem covered (i : S200000x512.Idx) :
    ∃ t : Fin cfg0.N, (cfg0.win 10).flush t = true ∧ i ∈ ((cfg0.win 10).blk t).view.set := by
  have hi0 : (i 0).val < 200000 := (i 0).isLt
  have hi1 : (i 1).val < 512 := (i 1).isLt
  have hN : cfg0.N = 125 := N_0
  obtain ⟨t, ht⟩ : ∃ t : Fin cfg0.N, t.val = (i 0).val / 1600 := ⟨⟨(i 0).val / 1600, by rw [hN]; omega⟩, rfl⟩
  obtain ⟨-, -, e0, e1, -⟩ := idx_streamed t
  refine ⟨t, flush0_10 t, ?_⟩
  rw [mem_blk]
  intro a
  match a with
  | ⟨0, _⟩ =>
    show win0_10.index t (0 : Fin 2) * 1600 ≤ (i 0).val ∧ (i 0).val < win0_10.index t (0 : Fin 2) * 1600 + 1600
    rw [e0, ht]; omega
  | ⟨1, _⟩ =>
    show win0_10.index t (1 : Fin 2) * 512 ≤ (i 1).val ∧ (i 1).val < win0_10.index t (1 : Fin 2) * 512 + 512
    rw [e1]; omega

/-- The result array after the run. -/
theorem final (c : Dev nD) : (dats m 0 c).arrAt 10 cfg0.N = updateAll (launched m c) (feats m c) :=
  (dats m 0 c).arrAt_eq_of_cover 10 (updateAll (launched m c) (feats m c)) (fun t _ => flushed_eq m c t) covered

/-- The kernel's run: every execution ends with the result array at the row-by-row update of the node features,
    the arguments as launched. -/
theorem run : θ_run defs (onTc (τ := τ) (main (F := Ideal))) ⟨m, fun _ => 0, ρ⟩ fun r => ∀ c : Dev nD,
      r.2.mem ((c : Thread nD τ).loc main_v7) = updateAll (launched m c) (feats m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.KernelArray

end
-- ==== Proof.LibConcatSqueeze.lean ====
/-
  A two-piece concatenation along the LAST axis read at an index, and a reshape that drops or inserts a middle unit
  axis read at an index.

  A concatenation of `[A, D1]` and `[A, D2]` along the last axis reads, at `(a, k)`, the first piece at `(a, k)` when
  `k < D1` and the second piece at `(a, k − D1)` otherwise; the same with a unit middle axis, `[A, 1, D1]` and
  `[A, 1, D2]`. A reshape between `[A, 1, D]` and `[A, D]` keeps every element at its coordinates `(a, d)`, the middle
  coordinate being `0`: both indices have row-major position `a · D + d`.
-/
import Idealize.ShloMosaic.Lib.ValueIdx
import Idealize.ShloMosaic.Lib.Pipeline.Value

noncomputable section

namespace SageLib

open Idealize.ShloMosaic Idealize.ShloMosaic.ValueIdx

/-! ## Two pieces along the last axis of a rank-2 array -/

/-- A concatenation of `[A, D1]` and `[A, D2]` along the last axis reads, at a column `k` below `D1`, the first piece
    at the same row and column. -/
theorem concat2_left {α : Type} {A D1 D2 D : ℕ}
    (h : Shape.Concatenates [⟨2, ![A, D1]⟩, ⟨2, ![A, D2]⟩] ⟨2, ![A, D]⟩ 1)
    (x₁ : (⟨2, ![A, D1]⟩ : Shape).Idx → α) (x₂ : (⟨2, ![A, D2]⟩ : Shape).Idx → α) (a : Fin A) (k : Fin D)
    (hk : k.val < D1) :
    concatenate ⟨2, ![A, D]⟩ 1 [⟨⟨2, ![A, D1]⟩, x₁⟩, ⟨⟨2, ![A, D2]⟩, x₂⟩] h (ix2 a k) = x₁ (ix2 a ⟨k.val, hk⟩) :=
  concatenate_pair_apply_left (t := ⟨2, ![A, D]⟩) (s₁ := ⟨2, ![A, D1]⟩) (s₂ := ⟨2, ![A, D2]⟩) 1 x₁ x₂ h (ix2 a k) rfl
    (ix2 a ⟨k.val, hk⟩) (fun b => match b with
      | ⟨0, _⟩ => rfl
      | ⟨1, _⟩ => rfl)

/-- A concatenation of `[A, D1]` and `[A, D2]` along the last axis reads, at a column `k` at or past `D1`, the second
    piece at the same row and column `k − D1`. -/
theorem concat2_right {α : Type} {A D1 D2 D : ℕ}
    (h : Shape.Concatenates [⟨2, ![A, D1]⟩, ⟨2, ![A, D2]⟩] ⟨2, ![A, D]⟩ 1)
    (x₁ : (⟨2, ![A, D1]⟩ : Shape).Idx → α) (x₂ : (⟨2, ![A, D2]⟩ : Shape).Idx → α) (a : Fin A) (k : Fin D)
    (hk : D1 ≤ k.val) (hk2 : k.val - D1 < D2) :
    concatenate ⟨2, ![A, D]⟩ 1 [⟨⟨2, ![A, D1]⟩, x₁⟩, ⟨⟨2, ![A, D2]⟩, x₂⟩] h (ix2 a k)
      = x₂ (ix2 a ⟨k.val - D1, hk2⟩) :=
  concatenate_pair_apply_right (t := ⟨2, ![A, D]⟩) (s₁ := ⟨2, ![A, D1]⟩) (s₂ := ⟨2, ![A, D2]⟩) 1 x₁ x₂ h (ix2 a k) rfl rfl
    (ix2 a ⟨k.val - D1, hk2⟩)
    (fun b => match b with
      | ⟨0, _⟩ => fun _ => rfl
      | ⟨1, _⟩ => fun hne => absurd rfl hne)
    (by show k.val - D1 + D1 = k.val; omega)

/-! ## Two pieces along the last axis of a rank-3 array with a unit middle axis -/

/-- A concatenation of `[A, 1, D1]` and `[A, 1, D2]` along the last axis reads, at a last coordinate `k` below `D1`, the
    first piece at the same coordinates. -/
theorem concat3_left {α : Type} {A D1 D2 D : ℕ}
    (h : Shape.Concatenates [⟨3, ![A, 1, D1]⟩, ⟨3, ![A, 1, D2]⟩] ⟨3, ![A, 1, D]⟩ 2)
    (x₁ : (⟨3, ![A, 1, D1]⟩ : Shape).Idx → α) (x₂ : (⟨3, ![A, 1, D2]⟩ : Shape).Idx → α) (a : Fin A) (k : Fin D)
    (hk : k.val < D1) :
    concatenate ⟨3, ![A, 1, D]⟩ 2 [⟨⟨3, ![A, 1, D1]⟩, x₁⟩, ⟨⟨3, ![A, 1, D2]⟩, x₂⟩] h (ix3 a (0 : Fin 1) k)
      = x₁ (ix3 a (0 : Fin 1) ⟨k.val, hk⟩) :=
  concatenate_pair_apply_left (t := ⟨3, ![A, 1, D]⟩) (s₁ := ⟨3, ![A, 1, D1]⟩) (s₂ := ⟨3, ![A, 1, D2]⟩) 2 x₁ x₂ h
    (ix3 a (0 : Fin 1) k) rfl (ix3 a (0 : Fin 1) ⟨k.val, hk⟩) (fun b => match b with
      | ⟨0, _⟩ => rfl
      | ⟨1, _⟩ => rfl
      | ⟨2, _⟩ => rfl)

/-- A concatenation of `[A, 1, D1]` and `[A, 1, D2]` along the last axis reads, at a last coordinate `k` at or past
    `D1`, the second piece at the same coordinates but `k − D1` on the last axis. -/
theorem concat3_right {α : Type} {A D1 D2 D : ℕ}
    (h : Shape.Concatenates [⟨3, ![A, 1, D1]⟩, ⟨3, ![A, 1, D2]⟩] ⟨3, ![A, 1, D]⟩ 2)
    (x₁ : (⟨3, ![A, 1, D1]⟩ : Shape).Idx → α) (x₂ : (⟨3, ![A, 1, D2]⟩ : Shape).Idx → α) (a : Fin A) (k : Fin D)
    (hk : D1 ≤ k.val) (hk2 : k.val - D1 < D2) :
    concatenate ⟨3, ![A, 1, D]⟩ 2 [⟨⟨3, ![A, 1, D1]⟩, x₁⟩, ⟨⟨3, ![A, 1, D2]⟩, x₂⟩] h (ix3 a (0 : Fin 1) k)
      = x₂ (ix3 a (0 : Fin 1) ⟨k.val - D1, hk2⟩) :=
  concatenate_pair_apply_right (t := ⟨3, ![A, 1, D]⟩) (s₁ := ⟨3, ![A, 1, D1]⟩) (s₂ := ⟨3, ![A, 1, D2]⟩) 2 x₁ x₂ h
    (ix3 a (0 : Fin 1) k) rfl rfl (ix3 a (0 : Fin 1) ⟨k.val - D1, hk2⟩)
    (fun b => match b with
      | ⟨0, _⟩ => fun _ => rfl
      | ⟨1, _⟩ => fun _ => rfl
      | ⟨2, _⟩ => fun hne => absurd rfl hne)
    (by show k.val - D1 + D1 = k.val; omega)

/-! ## Dropping and inserting a middle unit axis -/

/-- An `[A, 1, D]` array reshaped to `[A, D]` reads, at `(a, d)`, the operand at `(a, 0, d)`. -/
theorem squeeze_apply {α : Type} {A D : ℕ} (x : (⟨3, ![A, 1, D]⟩ : Shape).Idx → α)
    (h : (⟨3, ![A, 1, D]⟩ : Shape).ShapeCasts ⟨2, ![A, D]⟩) (a : Fin A) (d : Fin D) :
    shapeCast ⟨2, ![A, D]⟩ x h (ix2 a d) = x (ix3 a (0 : Fin 1) d) :=
  shapeCast_apply x h _ _ (by
    rw [Shape.rowMajor_val_three, Shape.rowMajor_val_two]
    show (a.val * 1 + 0) * D + d.val = a.val * D + d.val
    rw [Nat.mul_one, Nat.add_zero])

/-- An `[A, D]` array reshaped to `[A, 1, D]` reads, at `(a, 0, d)`, the operand at `(a, d)`. -/
theorem unsqueeze_apply {α : Type} {A D : ℕ} (y : (⟨2, ![A, D]⟩ : Shape).Idx → α)
    (h : (⟨2, ![A, D]⟩ : Shape).ShapeCasts ⟨3, ![A, 1, D]⟩) (a : Fin A) (d : Fin D) :
    shapeCast ⟨3, ![A, 1, D]⟩ y h (ix3 a (0 : Fin 1) d) = y (ix2 a d) :=
  shapeCast_apply y h _ _ (by
    rw [Shape.rowMajor_val_two, Shape.rowMajor_val_three]
    show a.val * D + d.val = (a.val * 1 + 0) * D + d.val
    rw [Nat.mul_one, Nat.add_zero])

end SageLib

end
-- ==== Proof.RefRows.lean ====
/-
  The reference, read row by row: its result array is the node update of every row of its first argument.

  The reference slices a row into its scalar part and its three vector components (a reshape of columns 128–511 to
  3 × 128), applies the two linear maps as one contraction over the feature axis, takes the norm as the square root
  of a sum over the component axis started from zero, joins the norms and the scalars into 256 columns for one
  contraction with the whole 256 × 128 weight, and spells the logistic function as 1 / (1 + exp (−h)). Each differs
  from the update's own spelling by a law of sums on the extended reals: a sum over three components from zero is
  the three terms added left to right, and a sum over 256 joined columns is the sum over the first 128 plus the sum
  over the last 128.
-/
import proofs.«160822_j41291815584027_2_alg».proof.Proof.Gen.ReferenceIdeal.Read
import proofs.«160822_j41291815584027_2_alg».proof.Proof.Spec
import proofs.«160822_j41291815584027_2_alg».proof.Proof.LibConcatSqueeze
import proofs.«160822_j41291815584027_2_alg».proof.Proof.LibMatProduct

noncomputable section

namespace Cert.RefRows

open Cert.ReferenceIdeal Cert.ReferenceIdeal.Read Idealize.ShloMosaic Idealize.ShloMosaic.ValueIdx Cert.NodeUpdate

variable (x0 : (⟨S200000x512, .f32⟩ : BufTy).Contents (Elt Ideal)) (x1 : (⟨S128x128, .f32⟩ : BufTy).Contents (Elt Ideal)) (x2 : (⟨S128, .f32⟩ : BufTy).Contents (Elt Ideal))
  (x3 : (⟨S128x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal))
  (x7 : (⟨S128x384, .f32⟩ : BufTy).Contents (Elt Ideal)) (x8 : (⟨S384, .f32⟩ : BufTy).Contents (Elt Ideal))

/-- Row `n` of the node features. -/
def row (n : Fin 200000) : Fin 512 → EReal := fun j => x0 (ix2 n j)

local notation "𝒲" => weightsOf x1 x2 x3 x4 x5 x6 x7 x8
local notation "𝓈" => fun n => rowS (row x0 n)
local notation "𝓋" => fun n => rowV (row x0 n)

/-! ## The vector components and the two linear maps -/

/-- Columns 128–511 reshaped to 3 × 128: component `c` of feature `k` is column `128 + 128·c + k`. -/
theorem comp_apply (n : Fin 200000) (c : Fin 3) (k : Fin 128) :
    val_main_v2 (F := Ideal) x0 (ix3 n c k) = x0 (ix2 n (colV c k)) := by
  rw [val_main_v2_apply, val_main_v1_apply]
  refine congrArg x0 (funext fun a => Fin.ext ?_)
  have hn := n.isLt; have hc := c.isLt; have hk := k.isLt
  match a with
  | ⟨0, _⟩ => show ((n.val * 3 + c.val) * 128 + k.val) / 384 = n.val; omega
  | ⟨1, _⟩ => show 128 + ((n.val * 3 + c.val) * 128 + k.val) % 384 = 128 + 128 * c.val + k.val; omega

theorem U_apply (n : Fin 200000) (c : Fin 3) (g : Fin 128) :
    val_main_v6 (F := Ideal) x0 x1 x2 (ix3 n c g) = Uv 𝒲 (rowV (row x0 n)) c g := by
  show val_main_v3 (F := Ideal) x0 x1 (ix3 n c g) + val_main_v5 (F := Ideal) x2 (ix3 n c g) = _
  rw [val_main_v3_apply, val_main_v5_apply, val_main_v4_apply]
  refine congrArg₂ (· + ·) (Finset.sum_congr rfl fun k _ => ?_) ?_
  · have el : lidx_main_v3 (ix3 n c g) k = ix3 n c k := funext fun a => Fin.ext (by match a with | ⟨0, _⟩ => rfl | ⟨1, _⟩ => rfl | ⟨2, _⟩ => rfl)
    have er : ridx_main_v3 (ix3 n c g) k = ix2 k g := funext fun a => Fin.ext (by match a with | ⟨0, _⟩ => rfl | ⟨1, _⟩ => rfl)
    rw [el, er, comp_apply]
    rfl
  · exact congrArg x2 (funext fun a => Fin.ext (by match a with | ⟨0, _⟩ => rfl))

theorem V_apply (n : Fin 200000) (c : Fin 3) (g : Fin 128) :
    val_main_v10 (F := Ideal) x0 x3 x4 (ix3 n c g) = Vv 𝒲 (rowV (row x0 n)) c g := by
  show val_main_v7 (F := Ideal) x0 x3 (ix3 n c g) + val_main_v9 (F := Ideal) x4 (ix3 n c g) = _
  rw [val_main_v7_apply, val_main_v9_apply, val_main_v8_apply]
  refine congrArg₂ (· + ·) (Finset.sum_congr rfl fun k _ => ?_) ?_
  · have el : lidx_main_v7 (ix3 n c g) k = ix3 n c k := funext fun a => Fin.ext (by match a with | ⟨0, _⟩ => rfl | ⟨1, _⟩ => rfl | ⟨2, _⟩ => rfl)
    have er : ridx_main_v7 (ix3 n c g) k = ix2 k g := funext fun a => Fin.ext (by match a with | ⟨0, _⟩ => rfl | ⟨1, _⟩ => rfl)
    rw [el, er, comp_apply]
    rfl
  · exact congrArg x4 (funext fun a => Fin.ext (by match a with | ⟨0, _⟩ => rfl))

/-! ## The norm over the components -/

theorem nrm_apply (n : Fin 200000) (g : Fin 128) :
    val_main_v11 (F := Ideal) x0 x3 x4 (ix2 n g) = nrm 𝒲 (rowV (row x0 n)) g := by
  rw [val_main_v11_apply, val_main_call0_v1_apply, Fin.sum_univ_three]
  have ei : ∀ k : Fin 3, idx_main_call0_v1 (ix2 n g) k = ix3 n k g := fun k => funext fun a => Fin.ext (by match a with | ⟨0, _⟩ => rfl | ⟨1, _⟩ => rfl | ⟨2, _⟩ => rfl)
  have sq : ∀ k : Fin 3, val_main_call0_v0 (F := Ideal) x0 x3 x4 (ix3 n k g)
      = Vv 𝒲 (rowV (row x0 n)) k g * Vv 𝒲 (rowV (row x0 n)) k g := fun k =>
    congrArg₂ (· * ·) (V_apply x0 x1 x2 x3 x4 x5 x6 x7 x8 n k g) (V_apply x0 x1 x2 x3 x4 x5 x6 x7 x8 n k g)
  rw [ei, ei, ei, sq, sq, sq, val_main_call0_cst_apply]
  show Ideal.sqrt (Ideal.ofBits .f32 0x00000000#32 + _) = _
  rw [Ideal.ofBits_zero_f32, zero_add]
  rfl

/-! ## The first dense layer -/

/-- The joined 256 columns: the norms, then the scalar features. -/
theorem joined_left (n : Fin 200000) (k : Fin 128) :
    val_main_v12 (F := Ideal) x0 x3 x4 (ix2 n ⟨k.val, by have := k.isLt; omega⟩) = nrm 𝒲 (rowV (row x0 n)) k := by
  unfold val_main_v12
  refine (SageLib.concat2_left (A := 200000) (D1 := 128) (D2 := 128) (D := 256) _ _ _ n ⟨k.val, by have := k.isLt; omega⟩ k.isLt).trans ?_
  exact nrm_apply x0 x1 x2 x3 x4 x5 x6 x7 x8 n k

theorem joined_right (n : Fin 200000) (k : Fin 128) :
    val_main_v12 (F := Ideal) x0 x3 x4 (ix2 n ⟨128 + k.val, by have := k.isLt; omega⟩) = rowS (row x0 n) k := by
  unfold val_main_v12
  refine (SageLib.concat2_right (A := 200000) (D1 := 128) (D2 := 128) (D := 256) _ _ _ n ⟨128 + k.val, by have := k.isLt; omega⟩ (by show 128 ≤ 128 + k.val; omega)
    (by show 128 + k.val - 128 < 128; have := k.isLt; omega)).trans ?_
  rw [val_main_v0_apply]
  refine congrArg x0 (funext fun a => Fin.ext ?_)
  match a with
  | ⟨0, _⟩ => rfl
  | ⟨1, _⟩ => show 128 + k.val - 128 = k.val; omega

theorem hid_apply (n : Fin 200000) (g : Fin 128) :
    val_main_v16 (F := Ideal) x0 x3 x4 x5 x6 (ix2 n g) = hid 𝒲 (rowS (row x0 n)) (rowV (row x0 n)) g := by
  show val_main_v13 (F := Ideal) x0 x3 x4 x5 (ix2 n g) + val_main_v15 (F := Ideal) x6 (ix2 n g) = _
  rw [val_main_v13_apply, val_main_v15_apply, val_main_v14_apply, sum_halves]
  refine congrArg₂ (· + ·) (congrArg₂ (· + ·) (Finset.sum_congr rfl fun k _ => ?_) (Finset.sum_congr rfl fun k _ => ?_)) ?_
  · have el : lidx_main_v13 (ix2 n g) ⟨k.val, by have := k.isLt; omega⟩ = ix2 n ⟨k.val, by have := k.isLt; omega⟩ :=
      funext fun a => Fin.ext (by match a with | ⟨0, _⟩ => rfl | ⟨1, _⟩ => rfl)
    have er : ridx_main_v13 (ix2 n g) ⟨k.val, by have := k.isLt; omega⟩ = ix2 ⟨k.val, by have := k.isLt; omega⟩ g :=
      funext fun a => Fin.ext (by match a with | ⟨0, _⟩ => rfl | ⟨1, _⟩ => rfl)
    rw [el, er, joined_left x0 x1 x2 x3 x4 x5 x6 x7 x8]
    rfl
  · have el : lidx_main_v13 (ix2 n g) ⟨128 + k.val, by have := k.isLt; omega⟩ = ix2 n ⟨128 + k.val, by have := k.isLt; omega⟩ :=
      funext fun a => Fin.ext (by match a with | ⟨0, _⟩ => rfl | ⟨1, _⟩ => rfl)
    have er : ridx_main_v13 (ix2 n g) ⟨128 + k.val, by have := k.isLt; omega⟩ = ix2 ⟨128 + k.val, by have := k.isLt; omega⟩ g :=
      funext fun a => Fin.ext (by match a with | ⟨0, _⟩ => rfl | ⟨1, _⟩ => rfl)
    rw [el, er, joined_right]
    rfl
  · exact congrArg x6 (funext fun a => Fin.ext (by match a with | ⟨0, _⟩ => rfl))

/-- The activation: the reference's `h · (1 / (1 + exp (−h)))` is `h · logistic h`. -/
theorem act_apply (n : Fin 200000) (g : Fin 128) :
    val_main_v17 (F := Ideal) x0 x3 x4 x5 x6 (ix2 n g) = act 𝒲 (rowS (row x0 n)) (rowV (row x0 n)) g := by
  rw [val_main_v17_apply, val_main_call1_v5_apply, val_main_call1_v4_apply, val_main_call1_cst_0_apply,
    val_main_call1_v3_apply, val_main_call1_v2_apply, val_main_call1_cst_apply, val_main_call1_v1_apply,
    val_main_call1_v0_apply, hid_apply x0 x1 x2 x3 x4 x5 x6 x7 x8]
  show _ * Ideal.div (Ideal.ofBits .f32 0x3F800000#32) (Ideal.ofBits .f32 0x3F800000#32 + Ideal.exp (-_)) = _
  rw [Cert.LibMatProduct.one_word]
  rfl

/-! ## The gates -/

theorem gates_apply (n : Fin 200000) (j : Fin 384) :
    val_main_v21 (F := Ideal) x0 x3 x4 x5 x6 x7 x8 (ix2 n j) = gates 𝒲 (rowS (row x0 n)) (rowV (row x0 n)) j := by
  show val_main_v18 (F := Ideal) x0 x3 x4 x5 x6 x7 (ix2 n j) + val_main_v20 (F := Ideal) x8 (ix2 n j) = _
  rw [val_main_v18_apply, val_main_v20_apply, val_main_v19_apply]
  refine congrArg₂ (· + ·) (Finset.sum_congr rfl fun k _ => ?_) ?_
  · have el : lidx_main_v18 (ix2 n j) k = ix2 n k := funext fun a => Fin.ext (by match a with | ⟨0, _⟩ => rfl | ⟨1, _⟩ => rfl)
    have er : ridx_main_v18 (ix2 n j) k = ix2 k j := funext fun a => Fin.ext (by match a with | ⟨0, _⟩ => rfl | ⟨1, _⟩ => rfl)
    rw [el, er, act_apply x0 x1 x2 x3 x4 x5 x6 x7 x8]
    rfl
  · exact congrArg x8 (funext fun a => Fin.ext (by match a with | ⟨0, _⟩ => rfl))

/-! ## The inner product, the updated scalars and the updated components -/

theorem inner_apply (n : Fin 200000) (f : Fin 128) :
    val_main_v29 (F := Ideal) x0 x1 x2 x3 x4 (ix2 n f) = inner 𝒲 (rowV (row x0 n)) f := by
  rw [val_main_v29_apply, Fin.sum_univ_three]
  have ei : ∀ k : Fin 3, idx_main_v29 (ix2 n f) k = ix3 n k f := fun k => funext fun a => Fin.ext (by match a with | ⟨0, _⟩ => rfl | ⟨1, _⟩ => rfl | ⟨2, _⟩ => rfl)
  have pr : ∀ k : Fin 3, val_main_v28 (F := Ideal) x0 x1 x2 x3 x4 (ix3 n k f)
      = Uv 𝒲 (rowV (row x0 n)) k f * Vv 𝒲 (rowV (row x0 n)) k f := fun k =>
    (val_main_v28_apply x0 x1 x2 x3 x4 _).trans (congrArg₂ (· * ·) (U_apply x0 x1 x2 x3 x4 x5 x6 x7 x8 n k f) (V_apply x0 x1 x2 x3 x4 x5 x6 x7 x8 n k f))
  rw [ei, ei, ei, pr, pr, pr, val_main_cst_apply]
  show Ideal.ofBits .f32 0x00000000#32 + _ = _
  rw [Ideal.ofBits_zero_f32, zero_add]
  rfl

/-- The scalar update before the residual: gate 1 times the inner product, plus gate 2. -/
theorem deltaS_apply (n : Fin 200000) (f : Fin 128) :
    val_main_v31 (F := Ideal) x0 x1 x2 x3 x4 x5 x6 x7 x8 (ix2 n f)
      = gates 𝒲 (rowS (row x0 n)) (rowV (row x0 n)) (colG 1 f) * inner 𝒲 (rowV (row x0 n)) f
        + gates 𝒲 (rowS (row x0 n)) (rowV (row x0 n)) (colG 2 f) := by
  have e1 : idx_main_v23 (ix2 n f) = ix2 n (colG 1 f) := funext fun a => Fin.ext (by
    match a with
    | ⟨0, _⟩ => rfl
    | ⟨1, _⟩ => show 128 + f.val = 128 * 1 + f.val; omega)
  have e2 : idx_main_v24 (ix2 n f) = ix2 n (colG 2 f) := funext fun a => Fin.ext (by
    match a with
    | ⟨0, _⟩ => rfl
    | ⟨1, _⟩ => show 256 + f.val = 128 * 2 + f.val; omega)
  rw [val_main_v31_apply, val_main_v30_apply, val_main_v23_apply, val_main_v24_apply, e1, e2,
    gates_apply x0 x1 x2 x3 x4 x5 x6 x7 x8, gates_apply x0 x1 x2 x3 x4 x5 x6 x7 x8, inner_apply x0 x1 x2 x3 x4 x5 x6 x7 x8]
  rfl

/-- The component update before the residual: gate 0 times `Uv`. -/
theorem deltaV_apply (n : Fin 200000) (c : Fin 3) (f : Fin 128) :
    val_main_v32 (F := Ideal) x0 x1 x2 x3 x4 x5 x6 x7 x8 (ix2 n ⟨128 * c.val + f.val, by have := c.isLt; have := f.isLt; omega⟩)
      = gates 𝒲 (rowS (row x0 n)) (rowV (row x0 n)) (colG 0 f) * Uv 𝒲 (rowV (row x0 n)) c f := by
  have e : idx_main_v32 (ix2 n ⟨128 * c.val + f.val, by have := c.isLt; have := f.isLt; omega⟩) = ix3 n c f :=
    funext fun a => Fin.ext (by
      have hn := n.isLt; have hc := c.isLt; have hf := f.isLt
      match a with
      | ⟨0, _⟩ => show (n.val * 384 + (128 * c.val + f.val)) / 384 = n.val; omega
      | ⟨1, _⟩ => show (n.val * 384 + (128 * c.val + f.val)) / 128 % 3 = c.val; omega
      | ⟨2, _⟩ => show (n.val * 384 + (128 * c.val + f.val)) % 128 = f.val; omega)
  have e0 : idx_main_v22 (idx_main_v25 (idx_main_v26 (ix3 n c f))) = ix2 n (colG 0 f) := funext fun a => Fin.ext (by
    match a with
    | ⟨0, _⟩ => rfl
    | ⟨1, _⟩ => show f.val = 128 * 0 + f.val; omega)
  rw [val_main_v32_apply, e, val_main_v27_apply, val_main_v26_apply, val_main_v25_apply, val_main_v22_apply, e0,
    gates_apply x0 x1 x2 x3 x4 x5 x6 x7 x8, U_apply x0 x1 x2 x3 x4 x5 x6 x7 x8]
  rfl

/-! ## The result -/

/-- The reference's result array is the row-by-row update of its first argument. -/
theorem result_eq : val_main_v34 (F := Ideal) x0 x1 x2 x3 x4 x5 x6 x7 x8 = updateAll 𝒲 x0 := by
  funext i
  obtain ⟨n, j, rfl⟩ : ∃ (n : Fin 200000) (j : Fin 512), i = ix2 n j := ⟨i 0, i 1, eq_ix2 i⟩
  rw [val_main_v34_apply]
  show _ = out 𝒲 (row x0 n) j
  rcases col_cases j with ⟨f, rfl⟩ | ⟨c, f, rfl⟩
  · rw [out_colS]
    refine congrArg₂ (· + ·) rfl ?_
    unfold val_main_v33
    refine (SageLib.concat2_left (A := 200000) (D1 := 128) (D2 := 384) (D := 512) _ _ _ n (colS f) f.isLt).trans ?_
    exact deltaS_apply x0 x1 x2 x3 x4 x5 x6 x7 x8 n f
  · rw [out_colV]
    refine congrArg₂ (· + ·) rfl ?_
    unfold val_main_v33
    have hc := c.isLt; have hf := f.isLt
    refine (SageLib.concat2_right (A := 200000) (D1 := 128) (D2 := 384) (D := 512) _ _ _ n (colV c f)
      (by show 128 ≤ 128 + 128 * c.val + f.val; omega)
      (by show 128 + 128 * c.val + f.val - 128 < 384; omega)).trans ?_
    have e : (⟨(colV c f).val - 128, by show 128 + 128 * c.val + f.val - 128 < 384; omega⟩ : Fin 384)
        = ⟨128 * c.val + f.val, by omega⟩ :=
      Fin.ext (by show 128 + 128 * c.val + f.val - 128 = 128 * c.val + f.val; omega)
    rw [e]
    exact deltaV_apply x0 x1 x2 x3 x4 x5 x6 x7 x8 n c f

end Cert.RefRows

end
-- ==== Proof.lean ====
/-
  The node update of an equivariant message-passing layer: a kernel over blocks of 1600 nodes against a plain
  array program, equal on the extended reals.

  Each node has a row of 512 features: 128 scalars and three components of 128 vector features. Both programs map a
  row to its updated row by the same formula (Proof/Spec.lean): two linear maps on the components, the norm of one
  image over the components, a two-layer dense network on the norms and the scalars with the activation
  `h · logistic h`, and the residual updates gated by the network's three outputs. The kernel streams the rows through
  a grid of 125 points, each updating 1600 rows with all weights resident; its matrix products into zero accumulators
  are finite sums, its changes of float format are the identity, and it contracts the two halves of the first dense
  layer's weight separately (Proof/KernelBody.lean, Proof/KernelBlock.lean, Proof/KernelArray.lean). The reference
  contracts the joined norms and scalars with the whole weight, sums over the component axis from zero, and spells the
  logistic function as a quotient (Proof/RefRows.lean). The two agree by commutative-monoid laws of finite sums on the
  extended reals alone, so the precondition that the inputs be finite is never used.
-/
import proofs.«160822_j41291815584027_2_alg».proof.Defs
import proofs.«160822_j41291815584027_2_alg».proof.Proof.Gen.Kernel
import proofs.«160822_j41291815584027_2_alg».proof.Proof.Gen.Kernel.Frame
import proofs.«160822_j41291815584027_2_alg».proof.Proof.Gen.KernelIdeal
import proofs.«160822_j41291815584027_2_alg».proof.Proof.Gen.KernelIdeal.Frame
import proofs.«160822_j41291815584027_2_alg».proof.Proof.Gen.KernelIdeal.Value
import proofs.«160822_j41291815584027_2_alg».proof.Proof.Gen.ReferenceIdeal
import proofs.«160822_j41291815584027_2_alg».proof.Proof.Gen.ReferenceIdeal.Run
import proofs.«160822_j41291815584027_2_alg».proof.Proof.Gen.ReferenceIdeal.Read
import proofs.«160822_j41291815584027_2_alg».proof.Proof.Gen.Pre_finite_inputs
import proofs.«160822_j41291815584027_2_alg».proof.Proof.KernelArray
import proofs.«160822_j41291815584027_2_alg».proof.Proof.RefRows
import Idealize.ShloMosaic.Adequacy
import Idealize.ShloMosaic.Init

noncomputable section

namespace Cert.Proof

open Idealize.ShloMosaic Idealize.SL.Sem Cert.NodeUpdate

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- From arguments that agree, the kernel's result array and the reference's are both the row-by-row update of the
    node features under the launched weights. -/
theorem algebraic : Cert.algebraic_KernelIdeal_ReferenceIdeal := by
  intro m ρ m' ρ' _ hagree
  refine ⟨fun c => updateAll (Cert.KernelArray.launched m c) (Cert.KernelArray.feats m c), Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v34_eq, Cert.RefRows.result_eq, h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
